-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S512x1 .f32) (main_arg6 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S65536x128 .f32) (main_arg1 : FVec F S128x512 .f32) (main_arg2 : FVec F S512 .f32) (main_arg3 : FVec F S512x512 .f32) (main_arg4 : FVec F S512 .f32) (main_arg5 : FVec F S512x1 .f32) (main_arg6 : FVec F S1 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S65536x128 : Shape := ⟨2, ![65536, 128]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x128 : Shape := ⟨2, ![512, 128]⟩
abbrev S1x512 : Shape := ⟨2, ![1, 512]⟩
abbrev S1024x128 : Shape := ⟨2, ![1024, 128]⟩
abbrev S1024x512 : Shape := ⟨2, ![1024, 512]⟩

abbrev nBuf : Space → Nat
  | .hbm => 15
  | .vmem => 11
  | .smem => 0
  | _ => 0

abbrev bufTy : (tb : Table) → Fin (tcTables nBuf tb) → BufTy
  | .hbm, ⟨0, _⟩ => ⟨S65536x128, .f32⟩
  | .hbm, ⟨1, _⟩ => ⟨S128x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S128x512, .bf16⟩
  | .hbm, ⟨8, _⟩ => ⟨S512x128, .f32⟩
  | .hbm, ⟨9, _⟩ => ⟨S512x128, .bf16⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S1x512, .f32⟩
  | .hbm, ⟨14, _⟩ => ⟨S65536x128, .f32⟩
  | .local _ .vmem, ⟨0, _⟩ => ⟨S1024x128, .f32⟩
  | .local _ .vmem, ⟨1, _⟩ => ⟨S1024x128, .f32⟩
  | .local _ .vmem, ⟨2, _⟩ => ⟨S128x512, .bf16⟩
  | .local _ .vmem, ⟨3, _⟩ => ⟨S512x128, .bf16⟩
  | .local _ .vmem, ⟨4, _⟩ => ⟨S512, .f32⟩
  | .local _ .vmem, ⟨5, _⟩ => ⟨S512x512, .bf16⟩
  | .local _ .vmem, ⟨6, _⟩ => ⟨S512x512, .bf16⟩
  | .local _ .vmem, ⟨7, _⟩ => ⟨S512, .f32⟩
  | .local _ .vmem, ⟨8, _⟩ => ⟨S1x512, .f32⟩
  | .local _ .vmem, ⟨9, _⟩ => ⟨S1024x128, .f32⟩
  | .local _ .vmem, ⟨10, _⟩ => ⟨S1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S128x512_S512x128_1_0 : S128x512.Transposes [1, 0] S512x128
  transposes_S512x512_S512x512_1_0 : S512x512.Transposes [1, 0] S512x512
  transposes_S512x1_S1x512_1_0 : S512x1.Transposes [1, 0] S1x512
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512_S512_0 : ∀ a, (![0] : Fin 1 → Nat) a + S512.size a ≤ S512.size a
  h_S512 : 0 < S512.numel
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S65536x512 : Shape := ⟨2, ![65536, 512]⟩
abbrev S1x512 : Shape := ⟨2, ![1, 512]⟩
abbrev S_ : Shape := ⟨0, ![]⟩
abbrev S65536x1 : Shape := ⟨2, ![65536, 1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S128x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S65536x512, .f32⟩
  | .hbm, ⟨8, _⟩ => ⟨S1x512, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S65536x1, .f32⟩
  | .hbm, ⟨24, _⟩ => ⟨S1x1, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S65536x1, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x128, .f32⟩
  | .hbm, ⟨40, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S_d0_1 : S65536x1.ReducesTo [0, 1] S_
  h_S_ : 0 < S_.numel
  bcast_S_S65536x1 : S_.BroadcastsInDim S65536x1 (![] : Fin 0 → Fin S65536x1.rank)
  dot_S65536x128_S128x512_S65536x512_1_0_0_1_n_n_wf : DotDims.WF S65536x128 S128x512 S65536x512 [1] [0] [0] [1] [] []
  dot_S65536x512_S512x512_S65536x512_1_0_0_1_n_n_wf : DotDims.WF S65536x512 S512x512 S65536x512 [1] [0] [0] [1] [] []
  dot_S65536x512_S512x1_S65536x1_1_0_0_1_n_n_wf : DotDims.WF S65536x512 S512x1 S65536x1 [1] [0] [0] [1] [] []
  dot_S65536x1_S512x1_S65536x512_1_1_0_0_n_n_wf : DotDims.WF S65536x1 S512x1 S65536x512 [1] [1] [0] [0] [] []
  dot_S65536x512_S512x512_S65536x512_1_1_0_0_n_n_wf : DotDims.WF S65536x512 S512x512 S65536x512 [1] [1] [0] [0] [] []
  dot_S65536x512_S128x512_S65536x128_1_1_0_0_n_n_wf : DotDims.WF S65536x512 S128x512 S65536x128 [1] [1] [0] [0] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf
def dot_S65536x1_S512x1_S65536x512_1_1_0_0_n_n : DotDims S65536x1 S512x1 S65536x512 where
  lhsContracting := [1]
  rhsContracting := [1]
  lhsNonContracting := [0]
  rhsNonContracting := [0]
  lhsBatch := []
  rhsBatch := []
  wf := dot_S65536x1_S512x1_S65536x512_1_1_0_0_n_n_wf
def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf
def dot_S65536x512_S128x512_S65536x128_1_1_0_0_n_n : DotDims S65536x512 S128x512 S65536x128 where
  lhsContracting := [1]
  rhsContracting := [1]
  lhsNonContracting := [0]
  rhsNonContracting := [0]
  lhsBatch := []
  rhsBatch := []
  wf := dot_S65536x512_S128x512_S65536x128_1_1_0_0_n_n_wf

class Facts : Prop extends Facts₀ where

variable [Facts]
-- ==== Proof.Spec.lean ====
/-
  The gradient of a two-hidden-layer tanh potential with respect to one input row, on the extended reals.

  For one row x ∈ ℝ¹²⁸ the potential is f(x) = Σ_j h₂(j)·w₃(j) + b₃ with h₁ = tanh(x·W₁ + b₁) ∈ ℝ⁵¹² and
  h₂ = tanh(h₁·W₂ + b₂) ∈ ℝ⁵¹². Its negated gradient is

      −∂f/∂x(d) = − Σ_i ( Σ_j w₃(j)·(1 − h₂(j)²)·W₂(i, j) ) · (1 − h₁(i)²) · W₁(d, i).

  Two spellings of the backward pass are compared here. One multiplies by the derivative of tanh written as
  1 − h·h and takes the weight matrices already transposed (`backT`). The other is what differentiating the
  forward pass mechanically produces: the cotangent g of a tanh output h is sent to g·(1 − h) + g·(1 − h)·h, the
  seed of the output layer is a product of an all-ones column with w₃, and the result is negated (`backD`).
  They agree because g·(1 − h) + g·(1 − h)·h = g·(1 − h·h) whenever g and h are real numbers: h is a value of
  tanh, hence real, and g is a finite sum of products of real numbers once w₃ and W₂ are real (`back_eq`).
  At infinite cotangents the identity fails (⊤·2 + ⊤·2·(−1) = ⊥ while ⊤·0 = 0), which is why the weights'
  finiteness is a hypothesis.
-/
import Idealize.ShloMosaic.PureOps.Ideal

noncomputable section

namespace Cert.MlpGrad

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem isReal_one : IsReal 1 := ⟨1, EReal.coe_one.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))

/-- tanh takes real values everywhere on the extended reals: −1 and 1 at the infinities. -/
theorem isReal_tanh (x : EReal) : IsReal (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The cotangent of a tanh output, in the two spellings: g·(1 − h) + g·(1 − h)·h = g·(1 − h·h) over the reals. -/
theorem tanh_cotangent {g h : EReal} (hg : IsReal g) (hh : IsReal h) :
    g * (1 - h) + g * (1 - h) * h = g * (1 - h * h) := by
  obtain ⟨a, rfl⟩ := hg; obtain ⟨b, rfl⟩ := hh
  rw [← EReal.coe_one, ← EReal.coe_sub, ← EReal.coe_mul, ← EReal.coe_mul, ← EReal.coe_mul, ← EReal.coe_add,
    ← EReal.coe_sub, ← EReal.coe_mul]
  exact congrArg _ (by ring)

/-- The first hidden layer of one row. -/
def hid1 (W1 : Fin 128 → Fin 512 → EReal) (b1 : Fin 512 → EReal) (x : Fin 128 → EReal) (i : Fin 512) : EReal :=
  Ideal.tanh ((∑ k : Fin 128, x k * W1 k i) + b1 i)

/-- The second hidden layer, from the first. -/
def hid2 (W2 : Fin 512 → Fin 512 → EReal) (b2 : Fin 512 → EReal) (h1 : Fin 512 → EReal) (j : Fin 512) : EReal :=
  Ideal.tanh ((∑ i : Fin 512, h1 i * W2 i j) + b2 j)

/-- The backward pass with the derivative of tanh written 1 − h·h and the weights given transposed:
    W1T (i, d) stands for W₁(d, i) and W2T (j, i) for W₂(i, j). The sign is a subtraction from zero. -/
def backT (W1T : Fin 512 → Fin 128 → EReal) (W2T : Fin 512 → Fin 512 → EReal) (w3 : Fin 512 → EReal)
    (h1 h2 : Fin 512 → EReal) (d : Fin 128) : EReal :=
  0 - ∑ i : Fin 512, ((∑ j : Fin 512, (w3 j * (1 - h2 j * h2 j)) * W2T j i) * (1 - h1 i * h1 i)) * W1T i d

/-- The seed of the mechanical backward pass at hidden unit j: a one-term product with the all-ones column, times 1 − h₂. -/
def seedD (w3c : Fin 512 → Fin 1 → EReal) (h2 : Fin 512 → EReal) (j : Fin 512) : EReal :=
  (∑ k : Fin 1, 1 * w3c j k) * (1 - h2 j)

/-- The cotangent reaching the first hidden layer in the mechanical backward pass, times 1 − h₁. -/
def midD (W2 : Fin 512 → Fin 512 → EReal) (w3c : Fin 512 → Fin 1 → EReal) (h1 h2 : Fin 512 → EReal) (i : Fin 512) : EReal :=
  (∑ j : Fin 512, (seedD w3c h2 j + seedD w3c h2 j * h2 j) * W2 i j) * (1 - h1 i)

/-- The backward pass as differentiating the forward pass produces it, negated at the end. -/
def backD (W1 : Fin 128 → Fin 512 → EReal) (W2 : Fin 512 → Fin 512 → EReal) (w3c : Fin 512 → Fin 1 → EReal)
    (h1 h2 : Fin 512 → EReal) (d : Fin 128) : EReal :=
  -(∑ i : Fin 512, (midD W2 w3c h1 h2 i + midD W2 w3c h1 h2 i * h1 i) * W1 d i)

/-- The two backward passes agree when the last layer's weights and W₂ are real and the hidden values are real. -/
theorem back_eq (W1 : Fin 128 → Fin 512 → EReal) (W2 : Fin 512 → Fin 512 → EReal) (w3c : Fin 512 → Fin 1 → EReal)
    (h1 h2 : Fin 512 → EReal) (hW2 : ∀ i j, IsReal (W2 i j)) (hw3 : ∀ j, IsReal (w3c j 0))
    (hh1 : ∀ i, IsReal (h1 i)) (hh2 : ∀ j, IsReal (h2 j)) (d : Fin 128) :
    backT (fun i d => W1 d i) (fun j i => W2 i j) (fun j => w3c j 0) h1 h2 d = backD W1 W2 w3c h1 h2 d := by
  have hseed : ∀ j, seedD w3c h2 j + seedD w3c h2 j * h2 j = w3c j 0 * (1 - h2 j * h2 j) := fun j => by
    unfold seedD
    rw [Fin.sum_univ_one, one_mul]
    exact tanh_cotangent (hw3 j) (hh2 j)
  have hmid : ∀ i, midD W2 w3c h1 h2 i + midD W2 w3c h1 h2 i * h1 i
      = (∑ j : Fin 512, (w3c j 0 * (1 - h2 j * h2 j)) * W2 i j) * (1 - h1 i * h1 i) := fun i => by
    unfold midD
    simp only [hseed]
    refine tanh_cotangent (isReal_sum _ _ fun j _ => ?_) (hh1 i)
    exact ((hw3 j).mul (isReal_one.sub ((hh2 j).mul (hh2 j)))).mul (hW2 i j)
  unfold backT backD
  simp only [hmid]
  rw [sub_eq_add_neg, zero_add]

end Cert.MlpGrad

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Payload.lean ====
/-
  The body of the kernel read at one entry of its output block, at the ideal values.

  For a block of 1024 rows the body computes, with W₁, W₂ and their transposes held whole and w₃ as a row,
      h₁ = tanh(x·W₁ + b₁),  h₂ = tanh(h₁·W₂ + b₂),
      g₂ = w₃ ⊙ (1 − h₂ ⊙ h₂),  g₁ = (g₂·W₂ᵀ) ⊙ (1 − h₁ ⊙ h₁),  out = 0 − g₁·W₁ᵀ.
  The changes of float format before each matrix product are the identity on the extended reals, each product into
  the zero accumulator is a plain sum over the contracted axis, the bias is a vector laid as a row and repeated down
  the rows, and the literals 1.0 and 0.0 denote 1 and 0. So the entry (p, q) of the stored value depends only on row
  p of the block of x and is the transposed-weights backward pass of `Spec` at column q.
-/
import proofs.«105997_j18038862643482_2_alg».proof.Proof.Gen.KernelIdeal.Skeleton
import proofs.«105997_j18038862643482_2_alg».proof.Proof.Spec
import proofs.«105997_j18038862643482_2_alg».proof.Proof.LibMatmulZero
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.MlpGrad

/-- The pattern of 1.0 denotes 1. -/
theorem ofBits_one : Ideal.ofBits .f32 0x3F800000#32 = 1 := IdealRules.sign_bit.ideal_onePat .f32

/-- A scalar literal at the ideal values is the extended real its pattern denotes. -/
theorem scalar_ofBits (b : BitVec 32) : Scalar.ofBits (F := Ideal) .f32 b = Ideal.ofBits .f32 b := rfl

/-- tanh of a vector, read at an index. -/
theorem tanh_apply {s : Shape} {φ : FTy} (a : FVec Ideal s φ) (i : s.Idx) : tanh a i = Ideal.tanh (a i) := rfl

/-- [1024, 128] × [128, 512] into zero, at (p, i): the sum over the 128 contracted positions. -/
theorem mm1_apply (l : FVec Ideal S1024x128 .bf16) (r : FVec Ideal S128x512 .bf16) (p : Fin 1024) (i : Fin 512) :
    matmul dot_S1024x128_S128x512_S1024x512_1_0_0_1_n_n none l r (constant S1024x512 .f32 0x00000000#32) (ix2 p i)
      = ∑ k : Fin 128, l (ix2 p k) * r (ix2 k i) :=
  Cert.LibMatmulZero.matmul_zero_ix2 dot_S1024x128_S128x512_S1024x512_1_0_0_1_n_n rfl rfl rfl rfl
    (fun i c => by
      unfold DotDims.lhsIdx
      rw [dif_neg (show ¬(0 : Fin _) ∈ dot_S1024x128_S128x512_S1024x512_1_0_0_1_n_n.lhsBatch by decide), dif_pos (show (0 : Fin _) ∈ dot_S1024x128_S128x512_S1024x512_1_0_0_1_n_n.lhsNonContracting by decide)]
      rfl)
    (fun i c => by
      unfold DotDims.rhsIdx
      rw [dif_neg (show ¬(1 : Fin _) ∈ dot_S1024x128_S128x512_S1024x512_1_0_0_1_n_n.rhsBatch by decide), dif_pos (show (1 : Fin _) ∈ dot_S1024x128_S128x512_S1024x512_1_0_0_1_n_n.rhsNonContracting by decide)]
      rfl)
    none l r p i

/-- [1024, 512] × [512, 512] into zero, at (p, j): the sum over the 512 contracted positions. -/
theorem mm2_apply (l : FVec Ideal S1024x512 .bf16) (r : FVec Ideal S512x512 .bf16) (p : Fin 1024) (j : Fin 512) :
    matmul dot_S1024x512_S512x512_S1024x512_1_0_0_1_n_n none l r (constant S1024x512 .f32 0x00000000#32) (ix2 p j)
      = ∑ k : Fin 512, l (ix2 p k) * r (ix2 k j) :=
  Cert.LibMatmulZero.matmul_zero_ix2 dot_S1024x512_S512x512_S1024x512_1_0_0_1_n_n rfl rfl rfl rfl
    (fun i c => by
      unfold DotDims.lhsIdx
      rw [dif_neg (show ¬(0 : Fin _) ∈ dot_S1024x512_S512x512_S1024x512_1_0_0_1_n_n.lhsBatch by decide), dif_pos (show (0 : Fin _) ∈ dot_S1024x512_S512x512_S1024x512_1_0_0_1_n_n.lhsNonContracting by decide)]
      rfl)
    (fun i c => by
      unfold DotDims.rhsIdx
      rw [dif_neg (show ¬(1 : Fin _) ∈ dot_S1024x512_S512x512_S1024x512_1_0_0_1_n_n.rhsBatch by decide), dif_pos (show (1 : Fin _) ∈ dot_S1024x512_S512x512_S1024x512_1_0_0_1_n_n.rhsNonContracting by decide)]
      rfl)
    none l r p j

/-- [1024, 512] × [512, 128] into zero, at (p, q): the sum over the 512 contracted positions. -/
theorem mm3_apply (l : FVec Ideal S1024x512 .bf16) (r : FVec Ideal S512x128 .bf16) (p : Fin 1024) (q : Fin 128) :
    matmul dot_S1024x512_S512x128_S1024x128_1_0_0_1_n_n none l r (constant S1024x128 .f32 0x00000000#32) (ix2 p q)
      = ∑ k : Fin 512, l (ix2 p k) * r (ix2 k q) :=
  Cert.LibMatmulZero.matmul_zero_ix2 dot_S1024x512_S512x128_S1024x128_1_0_0_1_n_n rfl rfl rfl rfl
    (fun i c => by
      unfold DotDims.lhsIdx
      rw [dif_neg (show ¬(0 : Fin _) ∈ dot_S1024x512_S512x128_S1024x128_1_0_0_1_n_n.lhsBatch by decide), dif_pos (show (0 : Fin _) ∈ dot_S1024x512_S512x128_S1024x128_1_0_0_1_n_n.lhsNonContracting by decide)]
      rfl)
    (fun i c => by
      unfold DotDims.rhsIdx
      rw [dif_neg (show ¬(1 : Fin _) ∈ dot_S1024x512_S512x128_S1024x128_1_0_0_1_n_n.rhsBatch by decide), dif_pos (show (1 : Fin _) ∈ dot_S1024x512_S512x128_S1024x128_1_0_0_1_n_n.rhsNonContracting by decide)]
      rfl)
    none l r p q

/-- A bias vector laid as a one-row matrix, at (0, i): the bias at i. -/
theorem bias_apply (b : FVec Ideal S512 .f32) (u : Fin 1) (i : Fin 512) :
    shapeCast S1x512 b shapeCasts_S512_S1x512 (ix2 u i) = b (ix1 i) :=
  shapeCast_a_1a_apply b shapeCasts_S512_S1x512 u i

/-- A one-row matrix repeated down 1024 rows, at (p, j): the row at j. -/
theorem row_apply (w : FVec Ideal S1x512 .f32) (p : Fin 1024) (j : Fin 512) :
    broadcastTo S1024x512 w broadcasts_S1x512_S1024x512 (ix2 p j) = w (ix2 (0 : Fin 1) j) :=
  broadcastTo_1b_ab_apply w broadcasts_S1x512_S1024x512 p j

/-- THE BODY AT AN ENTRY: entry (p, q) of what the body stores is the backward pass over the transposed weights
    held in the blocks, at the hidden values of row p. -/
theorem pay_apply (x0 : FVec Ideal S1024x128 .f32) (x1 : FVec Ideal S128x512 .bf16) (x2 : FVec Ideal S512x128 .bf16)
    (x3 : FVec Ideal S512 .f32) (x4 x5 : FVec Ideal S512x512 .bf16) (x6 : FVec Ideal S512 .f32) (x7 : FVec Ideal S1x512 .f32)
    (p : Fin 1024) (q : Fin 128) :
    k0_pay1 (F := Ideal) (k0_pay2 (F := Ideal) x0 x1 x2 x3 x4 x5 x6 x7) (ix2 p q)
      = backT (fun i d => x2 (ix2 i d)) (fun j i => x5 (ix2 j i)) (fun j => x7 (ix2 (0 : Fin 1) j))
          (hid1 (fun k i => x1 (ix2 k i)) (fun i => x3 (ix1 i)) (fun k => x0 (ix2 p k)))
          (hid2 (fun i j => x4 (ix2 i j)) (fun j => x6 (ix1 j))
            (hid1 (fun k i => x1 (ix2 k i)) (fun i => x3 (ix1 i)) (fun k => x0 (ix2 p k)))) q := by
  unfold k0_pay1 k0_pay2 backT hid1 hid2
  simp only [shapeCast_self, subf_apply, mulf_apply, addf_apply, truncf_apply, broadcast_apply, tanh_apply,
    mm1_apply, mm2_apply, mm3_apply, bias_apply, row_apply, scalar_ofBits, ofBits_one, Ideal.ofBits_zero_f32]

end Cert.KernelIdeal.Hand

end
-- ==== Proof.HostSide.lean ====
/-
  What the region finds in the arrays the host wrote before it.

  Before the region the host converts W₁ and W₂ to bf16, transposes each and converts the transposes, and
  transposes the column W₃ to a row. A change of float format is the identity on the extended reals, so at an
  index the five arrays are W₁, W₁ at the swapped index, W₂, W₂ at the swapped index, and W₃ at the swapped index.
-/
import proofs.«105997_j18038862643482_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- W₁ converted: W₁. -/
theorem V_v0 (c : Dev nD) (k : Fin 128) (i : Fin 512) :
    (V m c main_v0 : S128x512.Idx → EReal) (ix2 k i) = (m ((c : Thread nD τ).loc main_arg1) : S128x512.Idx → EReal) (ix2 k i) := by
  have e : @Eq (S128x512.Idx → EReal) (V m c main_v0)
      (truncf (F := Ideal) .bf16 (m ((c : Thread nD τ).loc main_arg1) : FVec Ideal S128x512 .f32) bitsLt_bf16_f32) := by
    dsimp only [Gen.V, Gen.hostOps0]; after_results
  exact congrFun e _

/-- W₁ transposed and converted, at (i, d): W₁ at (d, i). -/
theorem V_v2 (c : Dev nD) (i : Fin 512) (d : Fin 128) :
    (V m c main_v2 : S512x128.Idx → EReal) (ix2 i d) = (m ((c : Thread nD τ).loc main_arg1) : S128x512.Idx → EReal) (ix2 d i) := by
  have e : @Eq (S512x128.Idx → EReal) (V m c main_v2)
      (truncf (F := Ideal) .bf16 (transpose S512x128 [1, 0] (m ((c : Thread nD τ).loc main_arg1) : FVec Ideal S128x512 .f32) transposes_S128x512_S512x128_1_0) bitsLt_bf16_f32) := by
    dsimp only [Gen.V, Gen.hostOps0]; after_results
  refine (congrFun e _).trans ?_
  exact transpose_ix2_apply _ transposes_S128x512_S512x128_1_0 i d

/-- W₂ converted: W₂. -/
theorem V_v3 (c : Dev nD) (a : Fin 512) (j : Fin 512) :
    (V m c main_v3 : S512x512.Idx → EReal) (ix2 a j) = (m ((c : Thread nD τ).loc main_arg3) : S512x512.Idx → EReal) (ix2 a j) := by
  have e : @Eq (S512x512.Idx → EReal) (V m c main_v3)
      (truncf (F := Ideal) .bf16 (m ((c : Thread nD τ).loc main_arg3) : FVec Ideal S512x512 .f32) bitsLt_bf16_f32) := by
    dsimp only [Gen.V, Gen.hostOps0]; after_results
  exact congrFun e _

/-- W₂ transposed and converted, at (j, a): W₂ at (a, j). -/
theorem V_v5 (c : Dev nD) (j : Fin 512) (a : Fin 512) :
    (V m c main_v5 : S512x512.Idx → EReal) (ix2 j a) = (m ((c : Thread nD τ).loc main_arg3) : S512x512.Idx → EReal) (ix2 a j) := by
  have e : @Eq (S512x512.Idx → EReal) (V m c main_v5)
      (truncf (F := Ideal) .bf16 (transpose S512x512 [1, 0] (m ((c : Thread nD τ).loc main_arg3) : FVec Ideal S512x512 .f32) transposes_S512x512_S512x512_1_0) bitsLt_bf16_f32) := by
    dsimp only [Gen.V, Gen.hostOps0]; after_results
  refine (congrFun e _).trans ?_
  exact transpose_ix2_apply _ transposes_S512x512_S512x512_1_0 j a

/-- The column W₃ transposed to a row, at (0, j): W₃ at (j, 0). -/
theorem V_v6 (c : Dev nD) (u : Fin 1) (j : Fin 512) :
    (V m c main_v6 : S1x512.Idx → EReal) (ix2 u j) = (m ((c : Thread nD τ).loc main_arg5) : S512x1.Idx → EReal) (ix2 j u) := by
  have e : @Eq (S1x512.Idx → EReal) (V m c main_v6)
      (transpose S1x512 [1, 0] (m ((c : Thread nD τ).loc main_arg5) : FVec Ideal S512x1 .f32) transposes_S512x1_S1x512_1_0) := by
    dsimp only [Gen.V, Gen.hostOps0]; after_results
  refine (congrFun e _).trans ?_
  exact transpose_ix2_apply _ transposes_S512x1_S1x512_1_0 u j

end Cert.KernelIdeal.Hand

end
-- ==== Proof.Grad.lean ====
/-
  The negated gradient as a function of the whole argument arrays.

  Row r of the result depends on row r of x only: the hidden values of that row, then the backward pass at each of
  the 128 columns. `gradT` reads the weights through their transposes and writes the derivative of tanh as
  1 − h·h; `gradD` is the mechanical derivative of the forward pass. The two are one function when W₂ and W₃ hold
  real numbers (`grad_eq`, by `back_eq`: the hidden values are values of tanh, hence real).
-/
import proofs.«105997_j18038862643482_2_alg».proof.Proof.Spec
import Idealize.ShloMosaic.Lib.ValueIdx

noncomputable section

namespace Cert.MlpGrad

open Idealize.ShloMosaic Idealize.ShloMosaic.ValueIdx

/-- The first hidden layer of row r of x. -/
def rowHid1 (x : (⟨2, ![65536, 128]⟩ : Shape).Idx → EReal) (W1 : (⟨2, ![128, 512]⟩ : Shape).Idx → EReal)
    (b1 : (⟨1, ![512]⟩ : Shape).Idx → EReal) (r : Fin 65536) : Fin 512 → EReal :=
  hid1 (fun k i => W1 (ix2 k i)) (fun i => b1 (ix1 i)) (fun k => x (ix2 r k))

/-- The second hidden layer of row r of x. -/
def rowHid2 (x : (⟨2, ![65536, 128]⟩ : Shape).Idx → EReal) (W1 : (⟨2, ![128, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (r : Fin 65536) : Fin 512 → EReal :=
  hid2 (fun i j => W2 (ix2 i j)) (fun j => b2 (ix1 j)) (rowHid1 x W1 b1 r)

/-- The negated gradient with the weights read transposed and the derivative of tanh written 1 − h·h. -/
def gradT (x : (⟨2, ![65536, 128]⟩ : Shape).Idx → EReal) (W1 : (⟨2, ![128, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (W3 : (⟨2, ![512, 1]⟩ : Shape).Idx → EReal) :
    (⟨2, ![65536, 128]⟩ : Shape).Idx → EReal := fun i =>
  backT (fun a d => W1 (ix2 d a)) (fun j a => W2 (ix2 a j)) (fun j => W3 (ix2 j (0 : Fin 1)))
    (rowHid1 x W1 b1 ⟨(i 0).val, idx2_lt0 i⟩) (rowHid2 x W1 b1 W2 b2 ⟨(i 0).val, idx2_lt0 i⟩) ⟨(i 1).val, idx2_lt1 i⟩

/-- The negated gradient as the mechanical derivative of the forward pass. -/
def gradD (x : (⟨2, ![65536, 128]⟩ : Shape).Idx → EReal) (W1 : (⟨2, ![128, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (W3 : (⟨2, ![512, 1]⟩ : Shape).Idx → EReal) :
    (⟨2, ![65536, 128]⟩ : Shape).Idx → EReal := fun i =>
  backD (fun d a => W1 (ix2 d a)) (fun a j => W2 (ix2 a j)) (fun j k => W3 (ix2 j k))
    (rowHid1 x W1 b1 ⟨(i 0).val, idx2_lt0 i⟩) (rowHid2 x W1 b1 W2 b2 ⟨(i 0).val, idx2_lt0 i⟩) ⟨(i 1).val, idx2_lt1 i⟩

/-- Over real W₂ and W₃ the two are one function. -/
theorem grad_eq (x : (⟨2, ![65536, 128]⟩ : Shape).Idx → EReal) (W1 : (⟨2, ![128, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (W3 : (⟨2, ![512, 1]⟩ : Shape).Idx → EReal)
    (hW2 : ∀ i, IsReal (W2 i)) (hW3 : ∀ i, IsReal (W3 i)) :
    gradT x W1 b1 W2 b2 W3 = gradD x W1 b1 W2 b2 W3 :=
  funext fun i =>
    back_eq (fun d a => W1 (ix2 d a)) (fun a j => W2 (ix2 a j)) (fun j k => W3 (ix2 j k)) _ _
      (fun a j => hW2 (ix2 a j)) (fun j => hW3 (ix2 j 0)) (fun _ => isReal_tanh _) (fun _ => isReal_tanh _) _

end Cert.MlpGrad

end
-- ==== Proof.Blocks.lean ====
/-
  From the blocks the grid points write to the whole result array.

  The grid has 64 points; point t reads rows 1024·t … 1024·t + 1023 of x, reads every other operand whole, and
  writes the same rows of the result. By the body's value at an entry, row p of point t's block is the
  transposed-weights negated gradient of row 1024·t + p of x, that is, block t of `gradT` of the argument arrays.
  Every row r lies in the block of point r / 1024, so the blocks cover the array and it ends as `gradT`.
-/
import proofs.«105997_j18038862643482_2_alg».proof.Proof.Gen.KernelIdeal.Value
import proofs.«105997_j18038862643482_2_alg».proof.Proof.Payload
import proofs.«105997_j18038862643482_2_alg».proof.Proof.HostSide
import proofs.«105997_j18038862643482_2_alg».proof.Proof.Grad
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.MlpGrad
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The block index of each window at each grid point: x and the result move with the point along the rows, every
    other operand stays at its one block. -/
theorem idx_facts : ∀ t : Fin cfg0.N, win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0 :=
  (by decide +kernel : ∀ t : Fin grid0.N, _)

/-- Row p of point t's block is row 1024·t + p of the array. -/
def rowOf (t : Fin cfg0.N) (p : Fin 1024) : Fin 65536 :=
  ⟨1024 * t.val + p.val, by have h : t.val < 64 := lt_of_lt_of_eq t.isLt N_0; have := p.isLt; omega⟩

/-! ## Each input block read at an entry -/

theorem blk0_apply (c : Dev nD) (t : Fin cfg0.N) (p : Fin 1024) (k : Fin 128) :
    (iblk m c 0 t : FVec Ideal S1024x128 .f32) (ix2 p k)
      = ((m ((c : Thread nD τ).loc main_arg0)) : S65536x128.Idx → EReal) (ix2 (rowOf t p) k) := by
  obtain ⟨e0, e1, -⟩ := idx_facts t
  unfold iblk
  rw [View.read_apply]
  show V m c main_arg0 _ = _
  refine (congrFun (V_main_arg0 m c) _).trans ?_
  refine congrArg ((m ((c : Thread nD τ).loc main_arg0)) : S65536x128.Idx → EReal) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 128 + 1 * k.val = k.val; rw [e1]; omega

theorem blk1_apply (c : Dev nD) (t : Fin cfg0.N) (k : Fin 128) (i : Fin 512) :
    (iblk m c 1 t : FVec Ideal S128x512 .bf16) (ix2 k i) = ((m ((c : Thread nD τ).loc main_arg1)) : S128x512.Idx → EReal) (ix2 k i) := by
  obtain ⟨-, -, -, -, e0, e1, -⟩ := idx_facts t
  unfold iblk
  rw [View.read_apply]
  show V m c main_v0 _ = _
  refine Eq.trans (congrArg (V m c main_v0 : S128x512.Idx → EReal) (funext fun a => Fin.ext ?_)) (V_v0 m c k i)
  match a with
  | ⟨0, _⟩ => show win0_1.index t (0 : Fin 2) * 128 + 1 * k.val = k.val; rw [e0]; omega
  | ⟨1, _⟩ => show win0_1.index t (1 : Fin 2) * 512 + 1 * i.val = i.val; rw [e1]; omega

theorem blk2_apply (c : Dev nD) (t : Fin cfg0.N) (i : Fin 512) (d : Fin 128) :
    (iblk m c 2 t : FVec Ideal S512x128 .bf16) (ix2 i d) = ((m ((c : Thread nD τ).loc main_arg1)) : S128x512.Idx → EReal) (ix2 d i) := by
  obtain ⟨-, -, -, -, -, -, e0, e1, -⟩ := idx_facts t
  unfold iblk
  rw [View.read_apply]
  show V m c main_v2 _ = _
  refine Eq.trans (congrArg (V m c main_v2 : S512x128.Idx → EReal) (funext fun a => Fin.ext ?_)) (V_v2 m c i d)
  match a with
  | ⟨0, _⟩ => show win0_2.index t (0 : Fin 2) * 512 + 1 * i.val = i.val; rw [e0]; omega
  | ⟨1, _⟩ => show win0_2.index t (1 : Fin 2) * 128 + 1 * d.val = d.val; rw [e1]; omega

theorem blk3_apply (c : Dev nD) (t : Fin cfg0.N) (i : Fin 512) :
    (iblk m c 3 t : FVec Ideal S512 .f32) (ix1 i) = ((m ((c : Thread nD τ).loc main_arg2)) : S512.Idx → EReal) (ix1 i) := by
  obtain ⟨-, -, -, -, -, -, -, -, e0, -⟩ := idx_facts t
  unfold iblk
  rw [View.read_apply]
  show V m c main_arg2 _ = _
  refine (congrFun (V_main_arg2 m c) _).trans ?_
  refine congrArg ((m ((c : Thread nD τ).loc main_arg2)) : S512.Idx → EReal) (funext fun a => Fin.ext ?_)
  match a with
  | ⟨0, _⟩ => show win0_3.index t (0 : Fin 1) * 512 + 1 * i.val = i.val; rw [e0]; omega

theorem blk4_apply (c : Dev nD) (t : Fin cfg0.N) (a' : Fin 512) (j : Fin 512) :
    (iblk m c 4 t : FVec Ideal S512x512 .bf16) (ix2 a' j) = ((m ((c : Thread nD τ).loc main_arg3)) : S512x512.Idx → EReal) (ix2 a' j) := by
  obtain ⟨-, -, -, -, -, -, -, -, -, e0, e1, -⟩ := idx_facts t
  unfold iblk
  rw [View.read_apply]
  show V m c main_v3 _ = _
  refine Eq.trans (congrArg (V m c main_v3 : S512x512.Idx → EReal) (funext fun a => Fin.ext ?_)) (V_v3 m c a' j)
  match a with
  | ⟨0, _⟩ => show win0_4.index t (0 : Fin 2) * 512 + 1 * a'.val = a'.val; rw [e0]; omega
  | ⟨1, _⟩ => show win0_4.index t (1 : Fin 2) * 512 + 1 * j.val = j.val; rw [e1]; omega

theorem blk5_apply (c : Dev nD) (t : Fin cfg0.N) (j : Fin 512) (a' : Fin 512) :
    (iblk m c 5 t : FVec Ideal S512x512 .bf16) (ix2 j a') = ((m ((c : Thread nD τ).loc main_arg3)) : S512x512.Idx → EReal) (ix2 a' j) := by
  obtain ⟨-, -, -, -, -, -, -, -, -, -, -, e0, e1, -⟩ := idx_facts t
  unfold iblk
  rw [View.read_apply]
  show V m c main_v5 _ = _
  refine Eq.trans (congrArg (V m c main_v5 : S512x512.Idx → EReal) (funext fun a => Fin.ext ?_)) (V_v5 m c j a')
  match a with
  | ⟨0, _⟩ => show win0_5.index t (0 : Fin 2) * 512 + 1 * j.val = j.val; rw [e0]; omega
  | ⟨1, _⟩ => show win0_5.index t (1 : Fin 2) * 512 + 1 * a'.val = a'.val; rw [e1]; omega

theorem blk6_apply (c : Dev nD) (t : Fin cfg0.N) (j : Fin 512) :
    (iblk m c 6 t : FVec Ideal S512 .f32) (ix1 j) = ((m ((c : Thread nD τ).loc main_arg4)) : S512.Idx → EReal) (ix1 j) := by
  obtain ⟨-, -, -, -, -, -, -, -, -, -, -, -, -, e0, -⟩ := idx_facts t
  unfold iblk
  rw [View.read_apply]
  show V m c main_arg4 _ = _
  refine (congrFun (V_main_arg4 m c) _).trans ?_
  refine congrArg ((m ((c : Thread nD τ).loc main_arg4)) : S512.Idx → EReal) (funext fun a => Fin.ext ?_)
  match a with
  | ⟨0, _⟩ => show win0_6.index t (0 : Fin 1) * 512 + 1 * j.val = j.val; rw [e0]; omega

theorem blk7_apply (c : Dev nD) (t : Fin cfg0.N) (u : Fin 1) (j : Fin 512) :
    (iblk m c 7 t : FVec Ideal S1x512 .f32) (ix2 u j) = ((m ((c : Thread nD τ).loc main_arg5)) : S512x1.Idx → EReal) (ix2 j u) := by
  obtain ⟨-, -, -, -, -, -, -, -, -, -, -, -, -, -, e0, e1⟩ := idx_facts t
  unfold iblk
  rw [View.read_apply]
  show V m c main_v6 _ = _
  refine Eq.trans (congrArg (V m c main_v6 : S1x512.Idx → EReal) (funext fun a => Fin.ext ?_)) (V_v6 m c u j)
  match a with
  | ⟨0, _⟩ => show win0_7.index t (0 : Fin 2) * 1 + 1 * u.val = u.val; rw [e0]; omega
  | ⟨1, _⟩ => show win0_7.index t (1 : Fin 2) * 512 + 1 * j.val = j.val; rw [e1]; omega

/-! ## What a point writes back, and the whole array -/

/-- Entry (p, q) of point t's output block sits at (1024·t + p, q) of the array. -/
theorem emb8 (t : Fin cfg0.N) (p : Fin 1024) (q : Fin 128) :
    (((cfg0.win 8).blk t).view.emb (ix2 p q) : S65536x128.Idx) = ix2 (rowOf t p) q := by
  obtain ⟨-, -, e0, e1, -⟩ := idx_facts t
  refine funext fun a => Fin.ext ?_
  match a with
  | ⟨0, _⟩ => show win0_8.index t (0 : Fin 2) * 1024 + 1 * p.val = 1024 * t.val + p.val; rw [e0]; omega
  | ⟨1, _⟩ => show win0_8.index t (1 : Fin 2) * 128 + 1 * q.val = q.val; rw [e1]; omega

/-- WHAT POINT t WRITES BACK is block t of `gradT` of the argument arrays. -/
theorem flushed_eq (c : Dev nD) (t : Fin cfg0.N) :
    (dats m 0 c).flushed 8 t = ((cfg0.win 8).blk t).view.read (Elt Ideal) (gradT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed8]
  unfold out0_8
  rw [View.canon_unit_zero hz2]
  simp only [View.ld_unit_zero (S := S1024x128) hz2, View.ld_unit_zero (S := S128x512) hz2,
    View.ld_unit_zero (S := S512x128) hz2, View.ld_unit_zero (S := S512) hz1, View.ld_unit_zero (S := S512x512) hz2,
    View.ld_unit_zero (S := S1x512) hz2]
  refine funext fun (y : S1024x128.Idx) => ?_
  obtain ⟨p, q, rfl⟩ : ∃ (p : Fin 1024) (q : Fin 128), y = ix2 p q := ⟨y 0, y 1, eq_ix2 y⟩
  show k0_pay1 (F := Ideal) (k0_pay2 (F := Ideal) (iblk m c 0 t) (iblk m c 1 t) (iblk m c 2 t) (iblk m c 3 t) (iblk m c 4 t)
      (iblk m c 5 t) (iblk m c 6 t) (iblk m c 7 t)) (ix2 p q)
    = (gradT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 8).blk t).view.emb (ix2 p q))
  refine (pay_apply (iblk m c 0 t) (iblk m c 1 t) (iblk m c 2 t) (iblk m c 3 t) (iblk m c 4 t) (iblk m c 5 t)
    (iblk m c 6 t) (iblk m c 7 t) p q).trans ?_
  simp only [blk0_apply m c t, blk1_apply m c t, blk2_apply m c t, blk3_apply m c t, blk4_apply m c t, blk5_apply m c t,
    blk6_apply m c t, blk7_apply m c t]
  refine Eq.trans ?_ (congrArg (gradT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb8 t p q)).symm
  rfl

/-- An index of the array is in point t's block iff each coordinate is in the block's range on its axis. -/
theorem mem_blk (t : Fin cfg0.N) (i : S65536x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v7).slice (win0_8.rect t)).set ↔ _
  rw [View.set_slice_whole, Rect.mem_set_unit]
  exact Iff.rfl

/-- Every block of rows is some point's. -/
theorem idx_onto : ∀ r : Fin 64, ∃ t : Fin cfg0.N, win0_8.index t = ![r.val, 0] :=
  (by decide +kernel : ∀ r : Fin 64, ∃ t : Fin grid0.N, win0_8.index t = ![r.val, 0])

/-- Row r of the array lies in the block of the point that holds block r / 1024. -/
theorem cover (i : S65536x128.Idx) : ∃ t : Fin cfg0.N, (cfg0.win 8).flush t = true ∧ i ∈ ((cfg0.win 8).blk t).view.set := by
  have hi0 : (i 0).val < 65536 := (i 0).isLt
  have hi1 : (i 1).val < 128 := (i 1).isLt
  obtain ⟨t, ht⟩ := idx_onto ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

/-- THE RESULT ARRAY after the run is `gradT` of the argument arrays. -/
theorem final (c : Dev nD) : (dats m 0 c).arrAt 8 cfg0.N = (gradT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 8 (gradT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

/-- The kernel's run, read: the result at `gradT` of the arguments, the arguments unchanged. -/
theorem run : θ_run defs (onTc (τ := τ) (main (F := Ideal))) ⟨m, fun _ => 0, ρ⟩ fun r => ∀ c : Dev nD,
      r.2.mem ((c : Thread nD τ).loc main_v7) = (gradT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference program's result, stage by stage, is the mechanical backward pass of `Spec`.

  The reference differentiates the sum over all rows of the potential, so the cotangent of the last affine map
  is the all-ones column times W₃ (a product contracting an axis of extent one), each tanh sends its cotangent g
  to g·(1 − h) + g·(1 − h)·h, each affine map sends it to its product with the weights' transpose (written as a
  contraction of the two second axes), and the result is negated. Read at the entry (p, q), with each host product
  a sum over its contracted axis and each broadcast the value it repeats, this is `backD` at the hidden values of
  row p: `result_eq`. The sum of the potentials itself is computed by the program but does not enter the result.
-/
import proofs.«105997_j18038862643482_2_alg».proof.Proof.Gen.ReferenceIdeal.Read
import proofs.«105997_j18038862643482_2_alg».proof.Proof.Grad
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx
open Cert.MlpGrad

variable (x0 : (⟨S65536x128, .f32⟩ : BufTy).Contents (Elt Ideal)) (x1 : (⟨S128x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal)) (x5 : (⟨S512x1, .f32⟩ : BufTy).Contents (Elt Ideal))

/-- The pattern of 1.0 denotes 1. -/
theorem ofBits_one : Ideal.ofBits .f32 0x3F800000#32 = 1 := IdealRules.sign_bit.ideal_onePat .f32

/-! ## The operand indices of each product and broadcast, by coordinates -/

theorem lidx_v0 (p : Fin 65536) (i : Fin 512) (k : Fin 128) : lidx_main_v0 (ix2 p i) k = ix2 p k :=
  funext fun a => Fin.ext (by match a with | ⟨0, _⟩ => rfl | ⟨1, _⟩ => rfl)
theorem ridx_v0 (p : Fin 65536) (i : Fin 512) (k : Fin 128) : ridx_main_v0 (ix2 p i) k = ix2 k i :=
  funext fun a => Fin.ext (by match a with | ⟨0, _⟩ => rfl | ⟨1, _⟩ => rfl)
theorem idx_v2 (p : Fin 65536) (i : Fin 512) : idx_main_v2 (ix2 p i) = ix2 (0 : Fin 1) i :=
  funext fun a => Fin.ext (by match a with | ⟨0, _⟩ => rfl | ⟨1, _⟩ => rfl)
theorem idx_v1 (u : Fin 1) (i : Fin 512) : idx_main_v1 (ix2 u i) = ix1 i :=
  funext fun a => Fin.ext (by match a with | ⟨0, _⟩ => rfl)
theorem lidx_v7 (p : Fin 65536) (j : Fin 512) (k : Fin 512) : lidx_main_v7 (ix2 p j) k = ix2 p k :=
  funext fun a => Fin.ext (by match a with | ⟨0, _⟩ => rfl | ⟨1, _⟩ => rfl)
theorem ridx_v7 (p : Fin 65536) (j : Fin 512) (k : Fin 512) : ridx_main_v7 (ix2 p j) k = ix2 k j :=
  funext fun a => Fin.ext (by match a with | ⟨0, _⟩ => rfl | ⟨1, _⟩ => rfl)
theorem idx_v9 (p : Fin 65536) (j : Fin 512) : idx_main_v9 (ix2 p j) = ix2 (0 : Fin 1) j :=
  funext fun a => Fin.ext (by match a with | ⟨0, _⟩ => rfl | ⟨1, _⟩ => rfl)
theorem idx_v8 (u : Fin 1) (j : Fin 512) : idx_main_v8 (ix2 u j) = ix1 j :=
  funext fun a => Fin.ext (by match a with | ⟨0, _⟩ => rfl)
theorem ridx_v20 (p : Fin 65536) (j : Fin 512) (k : Fin 1) : ridx_main_v20 (ix2 p j) k = ix2 j k :=
  funext fun a => Fin.ext (by match a with | ⟨0, _⟩ => rfl | ⟨1, _⟩ => rfl)
theorem lidx_v24 (p : Fin 65536) (i : Fin 512) (k : Fin 512) : lidx_main_v24 (ix2 p i) k = ix2 p k :=
  funext fun a => Fin.ext (by match a with | ⟨0, _⟩ => rfl | ⟨1, _⟩ => rfl)
theorem ridx_v24 (p : Fin 65536) (i : Fin 512) (k : Fin 512) : ridx_main_v24 (ix2 p i) k = ix2 i k :=
  funext fun a => Fin.ext (by match a with | ⟨0, _⟩ => rfl | ⟨1, _⟩ => rfl)
theorem lidx_v28 (p : Fin 65536) (q : Fin 128) (k : Fin 512) : lidx_main_v28 (ix2 p q) k = ix2 p k :=
  funext fun a => Fin.ext (by match a with | ⟨0, _⟩ => rfl | ⟨1, _⟩ => rfl)
theorem ridx_v28 (p : Fin 65536) (q : Fin 128) (k : Fin 512) : ridx_main_v28 (ix2 p q) k = ix2 q k :=
  funext fun a => Fin.ext (by match a with | ⟨0, _⟩ => rfl | ⟨1, _⟩ => rfl)

/-! ## The forward pass -/

/-- The first tanh, at (p, i): the first hidden layer of row p. -/
theorem h1_apply (p : Fin 65536) (i : Fin 512) :
    val_main_v4 (F := Ideal) x0 x1 x2 (ix2 p i) = rowHid1 x0 x1 x2 p i := by
  rw [val_main_v4_apply, val_main_v3_apply, val_main_v0_apply, val_main_v2_apply, idx_v2, val_main_v1_apply, idx_v1]
  simp only [lidx_v0, ridx_v0, Ideal.addf_def, Ideal.hostUnary_tanh_def]
  rfl

/-- The second tanh, at (p, j): the second hidden layer of row p. -/
theorem h2_apply (p : Fin 65536) (j : Fin 512) :
    val_main_v11 (F := Ideal) x0 x1 x2 x3 x4 (ix2 p j) = rowHid2 x0 x1 x2 x3 x4 p j := by
  rw [val_main_v11_apply, val_main_v10_apply, val_main_v7_apply, val_main_v9_apply, idx_v9, val_main_v8_apply, idx_v8]
  simp only [lidx_v7, ridx_v7, h1_apply, Ideal.addf_def, Ideal.hostUnary_tanh_def]
  rfl

/-- 1 − h₁. -/
theorem c1_apply (p : Fin 65536) (i : Fin 512) :
    val_main_v6 (F := Ideal) x0 x1 x2 (ix2 p i) = 1 - rowHid1 x0 x1 x2 p i := by
  rw [val_main_v6_apply, val_main_v5_apply, val_main_cst_apply, h1_apply, Ideal.ofBits_def, ofBits_one, Ideal.subf_def]

/-- 1 − h₂. -/
theorem c2_apply (p : Fin 65536) (j : Fin 512) :
    val_main_v13 (F := Ideal) x0 x1 x2 x3 x4 (ix2 p j) = 1 - rowHid2 x0 x1 x2 x3 x4 p j := by
  rw [val_main_v13_apply, val_main_v12_apply, val_main_cst_0_apply, h2_apply, Ideal.ofBits_def, ofBits_one, Ideal.subf_def]

/-! ## The backward pass -/

/-- The seed times 1 − h₂, at (p, j). -/
theorem seed_apply (p : Fin 65536) (j : Fin 512) :
    val_main_v21 (F := Ideal) x0 x1 x2 x3 x4 x5 (ix2 p j)
      = seedD (fun j k => x5 (ix2 j k)) (rowHid2 x0 x1 x2 x3 x4 p) j := by
  rw [val_main_v21_apply, val_main_v20_apply, c2_apply]
  simp only [ridx_v20, val_main_v19_apply, val_main_cst_2_apply, Ideal.ofBits_def, ofBits_one, Ideal.mulf_def]
  rfl

/-- The cotangent of the second affine map's output, at (p, j). -/
theorem g2_apply (p : Fin 65536) (j : Fin 512) :
    val_main_v23 (F := Ideal) x0 x1 x2 x3 x4 x5 (ix2 p j)
      = seedD (fun j k => x5 (ix2 j k)) (rowHid2 x0 x1 x2 x3 x4 p) j
        + seedD (fun j k => x5 (ix2 j k)) (rowHid2 x0 x1 x2 x3 x4 p) j * rowHid2 x0 x1 x2 x3 x4 p j := by
  rw [val_main_v23_apply, val_main_v22_apply, seed_apply, h2_apply, Ideal.addf_def, Ideal.mulf_def]

/-- The cotangent reaching the first hidden layer times 1 − h₁, at (p, i). -/
theorem mid_apply (p : Fin 65536) (i : Fin 512) :
    val_main_v25 (F := Ideal) x0 x1 x2 x3 x4 x5 (ix2 p i)
      = midD (fun a j => x3 (ix2 a j)) (fun j k => x5 (ix2 j k)) (rowHid1 x0 x1 x2 p) (rowHid2 x0 x1 x2 x3 x4 p) i := by
  rw [val_main_v25_apply, val_main_v24_apply, c1_apply]
  simp only [lidx_v24, ridx_v24, g2_apply, Ideal.mulf_def]
  rfl

/-- The cotangent of the first affine map's output, at (p, i). -/
theorem g1_apply (p : Fin 65536) (i : Fin 512) :
    val_main_v27 (F := Ideal) x0 x1 x2 x3 x4 x5 (ix2 p i)
      = midD (fun a j => x3 (ix2 a j)) (fun j k => x5 (ix2 j k)) (rowHid1 x0 x1 x2 p) (rowHid2 x0 x1 x2 x3 x4 p) i
        + midD (fun a j => x3 (ix2 a j)) (fun j k => x5 (ix2 j k)) (rowHid1 x0 x1 x2 p) (rowHid2 x0 x1 x2 x3 x4 p) i
          * rowHid1 x0 x1 x2 p i := by
  rw [val_main_v27_apply, val_main_v26_apply, mid_apply, h1_apply, Ideal.addf_def, Ideal.mulf_def]

/-- THE REFERENCE'S RESULT is the mechanical derivative of the forward pass, as one function of the arguments. -/
theorem result_eq : val_main_v29 (F := Ideal) x0 x1 x2 x3 x4 x5 = gradD x0 x1 x2 x3 x4 x5 := by
  funext i
  obtain ⟨p, q, rfl⟩ : ∃ (p : Fin 65536) (q : Fin 128), i = ix2 p q := ⟨i 0, i 1, eq_ix2 i⟩
  rw [val_main_v29_apply, val_main_v28_apply]
  simp only [lidx_v28, ridx_v28, g1_apply, Ideal.hostNegf_def, Ideal.negf_def]
  rfl

end Cert.ReferenceIdeal.Hand

end
-- ==== Proof.Finite.lean ====
/-
  The precondition gives real weights.

  The precondition is the conjunction, over the seven arguments, of "every entry x has |x| < +∞" (an all-reduction
  by ∧ of the entrywise comparisons against the pattern of +∞). On the extended reals |x| = max x (−x) is +∞ exactly
  at the two infinities, so each entry of W₂ and of W₃ is a real number.
-/
import proofs.«105997_j18038862643482_2_alg».proof.Pre_finite_inputs
import proofs.«105997_j18038862643482_2_alg».proof.Proof.Spec
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic Cert.MlpGrad

instance : Subsingleton S_.Idx := ⟨fun a b => funext fun d => d.elim0⟩

/-- The pattern of +∞ denotes ⊤. -/
theorem ofBits_inf : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) : IsReal x := by
  rw [ofBits_inf] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | top => simp at hlt
  | coe r => exact ⟨r, rfl⟩

/-- Under the precondition every entry of the fourth and of the sixth argument is a real number. -/
theorem real_W2_W3 [Facts] (a0 : FVec Ideal S65536x128 .f32) (a1 : FVec Ideal S128x512 .f32) (a2 : FVec Ideal S512 .f32)
    (a3 : FVec Ideal S512x512 .f32) (a4 : FVec Ideal S512 .f32) (a5 : FVec Ideal S512x1 .f32) (a6 : FVec Ideal S1 .f32)
    (h : fn (F := Ideal) a0 a1 a2 a3 a4 a5 a6 = fun _ => 1#1) :
    (∀ i, IsReal (a3 i)) ∧ (∀ i, IsReal (a5 i)) := by
  have h33 := congrFun h ValueIdx.ix0
  dsimp only [fn, fn_part1] at h33
  obtain ⟨h28, -⟩ := IntOp.andi_eq_one.1 h33
  obtain ⟨h23, h27⟩ := IntOp.andi_eq_one.1 h28
  obtain ⟨h18, -⟩ := IntOp.andi_eq_one.1 h23
  obtain ⟨-, h17⟩ := IntOp.andi_eq_one.1 h18
  exact ⟨fun i => real_of_abs_lt _ (Host.reduce_andi_all _ _ _ _ _ h17 i),
    fun i => real_of_abs_lt _ (Host.reduce_andi_all _ _ _ _ _ h27 i)⟩

end Cert.Pre_finite_inputs.Hand

end
-- ==== Proof.lean ====
/-
  The negated input-gradient of a two-hidden-layer tanh potential: a blocked kernel against the derivative of the
  forward pass.

  For x ∈ ℝ^{65536×128}, W₁ ∈ ℝ^{128×512}, W₂ ∈ ℝ^{512×512}, W₃ ∈ ℝ^{512×1} and biases b₁, b₂, b₃, both programs
  return, row by row, −∂/∂x of f(x) = tanh(tanh(x·W₁ + b₁)·W₂ + b₂)·W₃ + b₃. The kernel takes 1024 rows per grid
  point, multiplies by the transposed weights the host prepared, and writes the derivative of tanh as 1 − h·h; the
  reference is the mechanical derivative of the summed potential, which sends a cotangent g through a tanh with
  output h to g·(1 − h) + g·(1 − h)·h. On the extended reals these agree where the cotangents are real numbers, and
  they are: the precondition makes W₂ and W₃ real, and every value of tanh is real. The kernel's array is assembled
  from its 64 blocks (`Blocks`), the reference's from its operations read one at a time (`RefValue`), the law
  between the two spellings is `Grad.grad_eq`, and the precondition is opened in `Finite`. No float operation was
  rewritten by the idealization, so the fourth conjunct is trivial; the three frames are the programs' runs with
  the results dropped.
-/
import proofs.«105997_j18038862643482_2_alg».proof.Defs
import proofs.«105997_j18038862643482_2_alg».proof.Proof.Gen.Kernel
import proofs.«105997_j18038862643482_2_alg».proof.Proof.Gen.Kernel.Skeleton
import proofs.«105997_j18038862643482_2_alg».proof.Proof.Gen.Kernel.Launch
import proofs.«105997_j18038862643482_2_alg».proof.Proof.Gen.Kernel.Points
import proofs.«105997_j18038862643482_2_alg».proof.Proof.Gen.Kernel.Frame
import proofs.«105997_j18038862643482_2_alg».proof.Proof.Gen.KernelIdeal
import proofs.«105997_j18038862643482_2_alg».proof.Proof.Gen.KernelIdeal.Skeleton
import proofs.«105997_j18038862643482_2_alg».proof.Proof.Gen.KernelIdeal.Launch
import proofs.«105997_j18038862643482_2_alg».proof.Proof.Gen.KernelIdeal.Points
import proofs.«105997_j18038862643482_2_alg».proof.Proof.Gen.KernelIdeal.Frame
import proofs.«105997_j18038862643482_2_alg».proof.Proof.Gen.ReferenceIdeal
import proofs.«105997_j18038862643482_2_alg».proof.Proof.Gen.Pre_finite_inputs
import proofs.«105997_j18038862643482_2_alg».proof.Proof.Gen.KernelIdeal.Value
import proofs.«105997_j18038862643482_2_alg».proof.Proof.Gen.ReferenceIdeal.Run
import proofs.«105997_j18038862643482_2_alg».proof.Proof.Gen.ReferenceIdeal.Read
import proofs.«105997_j18038862643482_2_alg».proof.Proof.Blocks
import proofs.«105997_j18038862643482_2_alg».proof.Proof.RefValue
import proofs.«105997_j18038862643482_2_alg».proof.Proof.Finite
import proofs.«105997_j18038862643482_2_alg».proof.Proof.Grad
import Idealize.ShloMosaic.Adequacy
import Idealize.ShloMosaic.Init

noncomputable section

namespace Cert.Proof

open Idealize.ShloMosaic Idealize.SL.Sem Cert.MlpGrad

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the negated gradient of the arguments: the kernel at its transposed-weights spelling,
    the reference at the mechanical derivative, one function over the real W₂ and W₃ the precondition gives. -/
theorem algebraic : Cert.algebraic_KernelIdeal_ReferenceIdeal := by
  intro m ρ m' ρ' hpre hagree
  refine ⟨fun c => gradT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hW2, hW3⟩ := Cert.Pre_finite_inputs.Hand.real_W2_W3 _ _ _ _ _ _ _ (hpre c)
  refine (Cert.ReferenceIdeal.Read.val_main_v29_eq m' c).trans ?_
  rw [Cert.ReferenceIdeal.Hand.result_eq, (hagree c).1, (hagree c).2.1, (hagree c).2.2.1, (hagree c).2.2.2.1,
    (hagree c).2.2.2.2.1, (hagree c).2.2.2.2.2.1]
  exact (grad_eq _ _ _ _ _ _ hW2 hW3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
